-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288 : Shape := ⟨1, ![12288]⟩
abbrev S_ : Shape := ⟨0, ![]⟩

class Facts : Prop where
  bcast_S_S12288 : S_.BroadcastsInDim S12288 (![] : Fin 0 → Fin S12288.rank)
  reducesTo_S12288_S_d0 : S12288.ReducesTo [0] S_
  h_S_ : 0 < S_.numel

variable [Facts]

def fn {F : FTy → Type} [FloatOps F] (main_arg0 : FVec F S12288 .f32) (main_arg1 : IVec S12288 32) (main_arg2 : IVec S12288 32) : IVec S_ 1 :=
  let main_v0 : FVec F S12288 .f32 := Host.absf main_arg0
  let main_cst : FVec F S_ .f32 := constant S_ .f32 0x7F800000#32
  let main_v1 : FVec F S12288 .f32 := broadcastInDim S12288 ![] bcast_S_S12288 main_cst
  let main_v2 : IVec S12288 1 := cmpf .olt main_v0 main_v1
  let main_c : IVec S_ 1 := constantI S_ 1 1#1
  let main_v3 : IVec S_ 1 := (fun x v => Host.reduce IntOp.andi x v reducesTo_S12288_S_d0 h_S_) main_v2 main_c
  main_v3
-- ==== Kernel.lean ====
abbrev S12288 : Shape := ⟨1, ![12288]⟩
abbrev S1x12288 : Shape := ⟨2, ![1, 12288]⟩
abbrev S12288x12288 : Shape := ⟨2, ![12288, 12288]⟩
abbrev S256x12288 : Shape := ⟨2, ![256, 12288]⟩
abbrev S1x256 : Shape := ⟨2, ![1, 256]⟩
abbrev S256x256 : Shape := ⟨2, ![256, 256]⟩

abbrev nBuf : Space → Nat
  | .hbm => 7
  | .vmem => 5
  | .smem => 0
  | _ => 0

abbrev bufTy : (tb : Table) → Fin (tcTables nBuf tb) → BufTy
  | .hbm, ⟨0, _⟩ => ⟨S12288, .f32⟩
  | .hbm, ⟨1, _⟩ => ⟨S12288, .i32⟩
  | .hbm, ⟨2, _⟩ => ⟨S12288, .i32⟩
  | .hbm, ⟨3, _⟩ => ⟨S1x12288, .f32⟩
  | .hbm, ⟨4, _⟩ => ⟨S1x12288, .i32⟩
  | .hbm, ⟨5, _⟩ => ⟨S1x12288, .i32⟩
  | .hbm, ⟨6, _⟩ => ⟨S12288x12288, .f32⟩
  | .local _ .vmem, ⟨0, _⟩ => ⟨S1x12288, .f32⟩
  | .local _ .vmem, ⟨1, _⟩ => ⟨S1x12288, .i32⟩
  | .local _ .vmem, ⟨2, _⟩ => ⟨S1x12288, .i32⟩
  | .local _ .vmem, ⟨3, _⟩ => ⟨S256x12288, .f32⟩
  | .local _ .vmem, ⟨4, _⟩ => ⟨S256x12288, .f32⟩
  | _, _ => ⟨S12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![48], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let c0_1 : Index := 0#32
  let arg0 : BitVec 32 := BitVec.ofNat 32 (i 0).val
  let c256_i32 : BitVec 32 := 256#32
  let v0 : BitVec 32 := Scalar.muli arg0 c256_i32
  let v1 : BitVec 32 := v0
  let v4 : Index := Scalar.indexCast v1
  ![0, v4.toNat]
def k0_off2 (i : grid0.Coords) : Fin 2 → Nat :=
  let c0_5 : Index := 0#32
  let arg0 : BitVec 32 := BitVec.ofNat 32 (i 0).val
  let c256_i32 : BitVec 32 := 256#32
  let v0 : BitVec 32 := Scalar.muli arg0 c256_i32
  let v1 : BitVec 32 := v0
  let v24 : Index := Scalar.indexCast v1
  ![0, v24.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x12288 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x12288 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x12288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S12288_S1x12288 : S12288.ShapeCasts S1x12288
  inb_S256x12288_S256x12288_0_0 : ∀ a, (![0, 0] : Fin 2 → Nat) a + S256x12288.size a ≤ S256x12288.size a
  h_S256x12288 : 0 < S256x12288.numel
  h_S1x256 : 0 < S1x256.numel
  shapeCasts_S1x256_S1x256 : S1x256.ShapeCasts S1x256
  iota_S256x256_d0_w32 : S256x256.Iotas .tc 32 [0]
  iota_S256x256_d1_w32 : S256x256.Iotas .tc 32 [1]
  broadcasts_S1x256_S256x256 : S1x256.Broadcasts S256x256
  h_S256x256 : 0 < S256x256.numel
  hrank0 : 0 < grid0.rank
  k0_mult1_dvd : ∀ i : grid0.Coords, 128 ∣ (k0_mult1 i).toNat
  k0_off1_inb : ∀ i : grid0.Coords, ∀ a, (k0_off1 i) a + S1x256.size a ≤ S1x12288.size a
  k0_off2_inb : ∀ i : grid0.Coords, ∀ a, (k0_off2 i) a + S256x256.size a ≤ S256x12288.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x12288.size a ≤ S1x12288.size a
  hwx0_0 : ∀ i : grid0.Coords, EltTy.bits .f32 = 32 ∨ (Rect.block (s := S1x12288) S1x12288.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x12288.size a ≤ S1x12288.size a
  hwx0_1 : ∀ i : grid0.Coords, EltTy.bits .i32 = 32 ∨ (Rect.block (s := S1x12288) S1x12288.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x12288.size a ≤ S1x12288.size a
  hwx0_2 : ∀ i : grid0.Coords, EltTy.bits .i32 = 32 ∨ (Rect.block (s := S1x12288) S1x12288.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x12288.size a ≤ S12288x12288.size a
  hwx0_3 : ∀ i : grid0.Coords, EltTy.bits .f32 = 32 ∨ (Rect.block (s := S12288x12288) S256x12288.size (cc0_transform_3 i) (hinb0_3 i)).WholeWords (EltTy.packing .f32)

variable [Facts₀]

abbrev win0_0 : Pipeline.Window sig grid0 :=
  Pipeline.Window.ofSpec (Memref.whole main_v0) S1x12288.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x12288.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x12288.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x12288.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S12288 : Shape := ⟨1, ![12288]⟩
abbrev S_ : Shape := ⟨0, ![]⟩
abbrev S12288x12288 : Shape := ⟨2, ![12288, 12288]⟩
abbrev S12288x1 : Shape := ⟨2, ![12288, 1]⟩

abbrev nBuf : Space → Nat
  | .hbm => 20
  | .vmem => 0
  | .smem => 0
  | _ => 0

abbrev bufTy : (tb : Table) → Fin (tcTables nBuf tb) → BufTy
  | .hbm, ⟨0, _⟩ => ⟨S12288, .f32⟩
  | .hbm, ⟨1, _⟩ => ⟨S12288, .i32⟩
  | .hbm, ⟨2, _⟩ => ⟨S12288, .i32⟩
  | .hbm, ⟨3, _⟩ => ⟨S12288, .f32⟩
  | .hbm, ⟨4, _⟩ => ⟨S12288, .f32⟩
  | .hbm, ⟨5, _⟩ => ⟨S12288, .f32⟩
  | .hbm, ⟨6, _⟩ => ⟨S12288, .f32⟩
  | .hbm, ⟨7, _⟩ => ⟨S_, .f32⟩
  | .hbm, ⟨8, _⟩ => ⟨S12288, .f32⟩
  | .hbm, ⟨9, _⟩ => ⟨S12288x12288, .i32⟩
  | .hbm, ⟨10, _⟩ => ⟨S12288x12288, .i32⟩
  | .hbm, ⟨11, _⟩ => ⟨S_, .i32⟩
  | .hbm, ⟨12, _⟩ => ⟨S12288x12288, .i32⟩
  | .hbm, ⟨13, _⟩ => ⟨S12288x12288, .i32⟩
  | .hbm, ⟨14, _⟩ => ⟨S12288x12288, .i1⟩
  | .hbm, ⟨15, _⟩ => ⟨S12288x1, .f32⟩
  | .hbm, ⟨16, _⟩ => ⟨S_, .f32⟩
  | .hbm, ⟨17, _⟩ => ⟨S12288x12288, .f32⟩
  | .hbm, ⟨18, _⟩ => ⟨S12288x12288, .f32⟩
  | .hbm, ⟨19, _⟩ => ⟨S12288x12288, .f32⟩
  | _, _ => ⟨S12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_c : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_0 : Ref sig .tc := ⟨.hbm, 16, rfl⟩
abbrev main_call0_call0_v0 : Ref sig .tc := ⟨.hbm, 17, rfl⟩
abbrev main_call0_call0_v1 : Ref sig .tc := ⟨.hbm, 18, rfl⟩
abbrev main_v4 : Ref sig .tc := ⟨.hbm, 19, rfl⟩

abbrev nD : Nat := 1
abbrev τ : Topo := Topo.v7x

variable {F : FTy → Type} [FloatOps F]

class Facts₀ : Prop where
  pads_S12288_S12288_000 : S12288.Pads (![0] : Fin 1 → Nat) ![0] ![0] S12288
  h_S_ : 0 < S_.numel
  bcast_S_S12288x12288 : S_.BroadcastsInDim S12288x12288 (![] : Fin 0 → Fin S12288x12288.rank)
  bcast_S12288_S12288x1_0 : S12288.BroadcastsInDim S12288x1 (![0] : Fin 1 → Fin S12288x1.rank)
  bcast_S12288x1_S12288x12288_0_1 : S12288x1.BroadcastsInDim S12288x12288 (![0, 1] : Fin 2 → Fin S12288x12288.rank)

variable [Facts₀]

class Facts : Prop extends Facts₀ where

variable [Facts]
-- ==== Proof.DiagMatrix.lean ====
/-
  The matrix both programs build, as ONE function of the three argument vectors.

  For a vector `p` of extended reals and two vectors `r`, `s` of 32-bit integer words, all of length 12288, put
  `d i = (s i read signed) − p i · (r i read signed)`.  The result is the 12288 × 12288 matrix whose entry `(i, i)` is `d i`
  and whose every other entry is the real number zero.  Nothing here needs a law of the extended reals: both programs
  compute `d i` by the same three operations in the same order, and they differ only in how the diagonal is laid out.
-/
import Idealize.ShloMosaic.PureOps.Ideal
import Idealize.ShloMosaic.Lib.ValueIdx

noncomputable section

namespace Cert.DiagMatrix

open Idealize.ShloMosaic Idealize.ShloMosaic.ValueIdx

/-- The shape of the three argument vectors. -/
abbrev SVec : Shape := ⟨1, ![12288]⟩
/-- The shape of the result. -/
abbrev SMat : Shape := ⟨2, ![12288, 12288]⟩

/-- The diagonal's entry `i`: `s i − p i · r i`, the integer words read as signed integers. -/
def entry (p : FVec Ideal SVec .f32) (r s : IVec SVec 32) (i : Fin 12288) : EReal :=
  (FloatOps.sitofp (F := Ideal) .f32 (s (ix1 i))) - p (ix1 i) * (FloatOps.sitofp (F := Ideal) .f32 (r (ix1 i)))

/-- The result's entry in row `a`, column `b`: the diagonal's entry when `a = b`, zero otherwise. -/
def cell (p : FVec Ideal SVec .f32) (r s : IVec SVec 32) (a b : Fin 12288) : EReal :=
  if a.val = b.val then entry p r s a else Ideal.ofBits .f32 0x00000000#32

/-- The whole result. -/
def matrix (p : FVec Ideal SVec .f32) (r s : IVec SVec 32) : FVec Ideal SMat .f32 :=
  fun j => cell p r s (j 0) (j 1)

theorem matrix_ix2 (p : FVec Ideal SVec .f32) (r s : IVec SVec 32) (a b : Fin 12288) :
    matrix p r s (ix2 a b) = cell p r s a b := rfl

/-- Off the diagonal an entry is zero. -/
theorem cell_of_ne (p : FVec Ideal SVec .f32) (r s : IVec SVec 32) {a b : Fin 12288} (h : a.val ≠ b.val) :
    cell p r s a b = Ideal.ofBits .f32 0x00000000#32 := if_neg h

/-- On the diagonal an entry is the diagonal's. -/
theorem cell_of_eq (p : FVec Ideal SVec .f32) (r s : IVec SVec 32) {a b : Fin 12288} (h : a.val = b.val) :
    cell p r s a b = entry p r s a := if_pos h

/-- An entry read by its column: on the diagonal the row and the column are one index. -/
theorem cell_eq_col (p : FVec Ideal SVec .f32) (r s : IVec SVec 32) (a b : Fin 12288) :
    cell p r s a b = if a.val = b.val then entry p r s b else Ideal.ofBits .f32 0x00000000#32 := by
  unfold cell
  by_cases h : a.val = b.val
  · rw [if_pos h, if_pos h, Fin.ext h]
  · rw [if_neg h, if_neg h]

/-- Two indices below 2^32 are equal exactly when their 32-bit words are: the comparison both programs make. -/
theorem ofNat32_eq_iff {a b : Nat} (ha : a < 4294967296) (hb : b < 4294967296) :
    BitVec.ofNat 32 a = BitVec.ofNat 32 b ↔ a = b := by
  constructor
  · intro h
    have := congrArg BitVec.toNat h
    simp only [BitVec.toNat_ofNat] at this
    omega
  · intro h; rw [h]

/-- The bit of "equal" on the words of two indices below 2^32 is the bit of "the indices are equal". -/
theorem cmp_bit (a b : Nat) (ha : a < 4294967296) (hb : b < 4294967296) :
    IntOp.cmpi .eq (BitVec.ofNat 32 a) (BitVec.ofNat 32 b) = if a = b then 1#1 else 0#1 := by
  unfold IntOp.cmpi
  by_cases h : a = b
  · subst h; simp
  · have hne : BitVec.ofNat 32 a ≠ BitVec.ofNat 32 b := fun e => h ((ofNat32_eq_iff ha hb).mp e)
    rw [if_neg h]
    show BitVec.ofBool (BitVec.ofNat 32 a == BitVec.ofNat 32 b) = 0#1
    rw [beq_eq_false_iff_ne.mpr hne]
    rfl

/-- A select on the bit of a decided proposition is the `if` on it. -/
theorem select_bit {α : Type} (P : Prop) [Decidable P] (x y : α) :
    Scalar.select (if P then 1#1 else 0#1) x y = if P then x else y := by
  by_cases h : P
  · rw [if_pos h, if_pos h]; exact select_one x y
  · rw [if_neg h, if_neg h]; exact select_zero x y

end Cert.DiagMatrix

end
-- ==== Proof.KernelBody.lean ====
/-
  What one grid point leaves in the output's staging block.

  The body stores twice into its 256 × 12288 block: first zero everywhere, then, over the 256 × 256 sub-block of columns
  `256 t … 256 t + 255` (`t` the grid point), the square that holds `d` on its diagonal and zero elsewhere, where `d` is the
  slice `256 t … 256 t + 255` of `s − p · r`.  So the block is the later store's payload inside that column range and zero
  outside it.  Here: the two stores as a closed list, the column offset as `256 t`, and the later payload read at an index.
-/
import proofs.«160500_j78228534329909_2_alg».proof.Proof.Gen.KernelIdeal.Value
import proofs.«160500_j78228534329909_2_alg».proof.Proof.DiagMatrix
import Idealize.ShloMosaic.Lib.Pipeline.Value
import Idealize.ShloMosaic.Lib.ValueIdx
import Idealize.ShloMosaic.Lib.ValueLayout

set_option maxRecDepth 16384

noncomputable section

namespace Cert.KernelIdeal.Body

open Cert.KernelIdeal Cert.KernelIdeal.Gen Idealize.ShloMosaic Idealize.ShloMosaic.TcCoe Idealize.ShloMosaic.ValueIdx
open Idealize.SL.Sem Cert.DiagMatrix

theorem hz : (![0, 0] : Fin 2 → Nat) = fun _ => 0 := funext fun a => by fin_cases a <;> rfl

section Pieces
variable {F : FTy → Type} [FloatOps F]

/-- The block after the body: the two stores, last first, each with its payload over the loaded slices. -/
theorem out_eq_canon (c : Dev nD) (i : grid0.Coords) (arg1 : Memref sig .tc .vmem S1x12288 .f32) (harg1 : arg1.IsWhole) (arg2 : Memref sig .tc .vmem S1x12288 .i32) (harg2 : arg2.IsWhole) (arg3 : Memref sig .tc .vmem S1x12288 .i32) (harg3 : arg3.IsWhole) (arg4 : Memref sig .tc .vmem S256x12288 .f32) (harg4 : arg4.IsWhole)
    (x0 : Vec F S1x12288 .f32) (x1 : Vec F S1x12288 .i32) (x2 : Vec F S1x12288 .i32) :
    out0_A_3 c i arg1 harg1 arg2 harg2 arg3 harg3 arg4 harg4 x0 x1 x2
      = View.canon
          [⟨Rect.unit (s := S256x12288) (k0_off2 i) S256x256.size (k0_off2_inb i),
              k0_pay2 (View.ld x0 (Rect.unit (s := S1x12288) (k0_off1 i) S1x256.size (k0_off1_inb i)))
                (View.ld x1 (Rect.unit (s := S1x12288) (k0_off1 i) S1x256.size (k0_off1_inb i)))
                (View.ld x2 (Rect.unit (s := S1x12288) (k0_off1 i) S1x256.size (k0_off1_inb i)))⟩,
            ⟨Rect.unit (s := S256x12288) ![0, 0] S256x12288.size inb_S256x12288_S256x12288_0_0, k0_pay1⟩] := by
  unfold out0_A_3
  rw [View.read_writes_eq_canon _ _ _ (cover0_A_3 c i arg1 harg1 arg2 harg2 arg3 harg3 arg4 harg4 x0 x1 x2)]
  unfold kernelRun0_A
  dsimp only
  simp only [View.readAt_eq_ld, harg1.read_unread, harg2.read_unread, harg3.read_unread]

end Pieces

/-- The column offset of the loads and of the later store at grid point `t` is `256 t` (no wrap: `t < 48`). -/
theorem offsets : ∀ t : Fin cfg0.N,
    k0_off1 (grid0.coords t) 0 = 0 ∧ k0_off1 (grid0.coords t) 1 = 256 * t.val
    ∧ k0_off2 (grid0.coords t) 0 = 0 ∧ k0_off2 (grid0.coords t) 1 = 256 * t.val :=
  (by decide +kernel : ∀ t : Fin grid0.N, _)

/-- The later store's payload at row `a`, column `b` of the square: the difference at `b` when `a = b`, zero otherwise. -/
theorem pay2_apply (v5 : Vec Ideal S1x256 .f32) (v8 v11 : Vec Ideal S1x256 .i32) (a b : Fin 256) :
    k0_pay2 (F := Ideal) v5 v8 v11 (ix2 a b)
      = if a.val = b.val then
          (FloatOps.sitofp (F := Ideal) .f32 (v11 (ix2 (0 : Fin 1) b)))
            - v5 (ix2 (0 : Fin 1) b) * (FloatOps.sitofp (F := Ideal) .f32 (v8 (ix2 (0 : Fin 1) b)))
        else Ideal.ofBits .f32 0x00000000#32 := by
  unfold k0_pay2
  dsimp only
  simp only [shapeCast_self]
  rw [select_apply, broadcastTo_1b_ab_apply]
  show Scalar.select (IntOp.cmpi .eq (iota .tc S256x256 32 [0] iota_S256x256_d0_w32 (ix2 a b)) (iota .tc S256x256 32 [1] iota_S256x256_d1_w32 (ix2 a b))) _ _ = _
  rw [iota_single_apply, iota_single_apply]
  show Scalar.select (IntOp.cmpi .eq (BitVec.ofNat 32 a.val) (BitVec.ofNat 32 b.val)) _ _ = _
  rw [cmp_bit _ _ (by have := a.isLt; omega) (by have := b.isLt; omega), select_bit]
  rfl

/-- The earlier store's payload is zero everywhere. -/
theorem pay1_apply (y : S256x12288.Idx) : k0_pay1 (F := Ideal) y = Ideal.ofBits .f32 0x00000000#32 := rfl

end Cert.KernelIdeal.Body

end
-- ==== Proof.KernelArray.lean ====
/-
  The kernel's result array is the diagonal matrix.

  Each input window is the whole 1 × 12288 reshape of its argument vector, so its block at any grid point reads the
  argument itself.  At grid point `t` the output block is rows `256 t … 256 t + 255` of the result: inside columns
  `256 t … 256 t + 255` it holds the later store's square, whose entry `(a, b')` is the diagonal's entry `256 t + b'` when
  `a = b'` and zero otherwise; outside those columns it holds the earlier store's zero.  Row `256 t + a` meets the diagonal at
  column `256 t + a`, which lies inside the square, so the block is exactly rows `256 t …` of the diagonal matrix.  The 48
  blocks tile the rows (row `i` is in block `i / 256`), so the array ends holding the matrix.
-/
import proofs.«160500_j78228534329909_2_alg».proof.Proof.KernelBody
import Idealize.ShloMosaic.Lib.StableHlo.Run

set_option maxRecDepth 16384

noncomputable section

namespace Cert.KernelIdeal.Body

open Cert.KernelIdeal Cert.KernelIdeal.Gen Cert.KernelIdeal.Value Idealize.ShloMosaic Idealize.ShloMosaic.TcCoe Idealize.ShloMosaic.ValueIdx
open Idealize.SL.Sem Cert.DiagMatrix Idealize.ShloMosaic.StableHlo
open Idealize.ShloMosaic.Pipeline (Dat)

variable (m : (ℓ : Loc nD τ sig) → Buf (Elt Ideal) ℓ) (ρ : Dev nD → PrngReg)

/-! ## The input arrays as the region finds them, and their blocks -/

/-- The first window's array is the first argument cast to one row. -/
theorem V_v0 (c : Dev nD) : (V m c main_v0 : S1x12288.Idx → EReal)
    = shapeCast S1x12288 (m ((c : Thread nD τ).loc main_arg0) : S12288.Idx → EReal) shapeCasts_S12288_S1x12288 := by
  dsimp only [Gen.V, Gen.hostOps0]; after_results; rfl

/-- The second window's array is the second argument cast to one row. -/
theorem V_v1 (c : Dev nD) : (V m c main_v1 : S1x12288.Idx → BitVec 32)
    = shapeCast S1x12288 (m ((c : Thread nD τ).loc main_arg1) : S12288.Idx → BitVec 32) shapeCasts_S12288_S1x12288 := by
  dsimp only [Gen.V, Gen.hostOps0]; after_results; rfl

/-- The third window's array is the third argument cast to one row. -/
theorem V_v2 (c : Dev nD) : (V m c main_v2 : S1x12288.Idx → BitVec 32)
    = shapeCast S1x12288 (m ((c : Thread nD τ).loc main_arg2) : S12288.Idx → BitVec 32) shapeCasts_S12288_S1x12288 := by
  dsimp only [Gen.V, Gen.hostOps0]; after_results; rfl

/-- The block indices over the grid: the inputs' blocks never move, the output's block `t` is row band `t`. -/
theorem idx_facts : ∀ t : Fin cfg0.N,
    win0_0.index t 0 = 0 ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 0 :=
  (by decide +kernel : ∀ t : Fin grid0.N, _)

/-- The first window's block at any point reads the first argument: entry `(u, k)` is the argument at `k`. -/
theorem iblk0_apply (c : Dev nD) (t : Fin cfg0.N) (u : Fin 1) (k : Fin 12288) :
    (iblk m c 0 t : S1x12288.Idx → EReal) (ix2 u k) = (m ((c : Thread nD τ).loc main_arg0) : S12288.Idx → EReal) (ix1 k) := by
  obtain ⟨e0, e1, -⟩ := idx_facts t
  unfold iblk
  rw [View.read_apply]
  show (V m c main_v0 : S1x12288.Idx → EReal) (((cfg0.win 0).blk t).view.emb (ix2 u k)) = _
  have hemb : ((cfg0.win 0).blk t).view.emb (ix2 u k) = (ix2 (0 : Fin 1) k : S1x12288.Idx) := by
    funext a; apply Fin.ext
    match a with
    | ⟨0, _⟩ => show win0_0.index t 0 * 1 + 1 * u.val = 0; rw [e0]; omega
    | ⟨1, _⟩ => show win0_0.index t 1 * 12288 + 1 * k.val = k.val; rw [e1]; omega
  rw [hemb, V_v0]
  exact shapeCast_a_1a_apply _ _ 0 k

/-- The second window's block at any point reads the second argument. -/
theorem iblk1_apply (c : Dev nD) (t : Fin cfg0.N) (u : Fin 1) (k : Fin 12288) :
    (iblk m c 1 t : S1x12288.Idx → BitVec 32) (ix2 u k) = (m ((c : Thread nD τ).loc main_arg1) : S12288.Idx → BitVec 32) (ix1 k) := by
  obtain ⟨-, -, e0, e1, -⟩ := idx_facts t
  unfold iblk
  rw [View.read_apply]
  show (V m c main_v1 : S1x12288.Idx → BitVec 32) (((cfg0.win 1).blk t).view.emb (ix2 u k)) = _
  have hemb : ((cfg0.win 1).blk t).view.emb (ix2 u k) = (ix2 (0 : Fin 1) k : S1x12288.Idx) := by
    funext a; apply Fin.ext
    match a with
    | ⟨0, _⟩ => show win0_1.index t 0 * 1 + 1 * u.val = 0; rw [e0]; omega
    | ⟨1, _⟩ => show win0_1.index t 1 * 12288 + 1 * k.val = k.val; rw [e1]; omega
  rw [hemb, V_v1]
  exact shapeCast_a_1a_apply _ _ 0 k

/-- The third window's block at any point reads the third argument. -/
theorem iblk2_apply (c : Dev nD) (t : Fin cfg0.N) (u : Fin 1) (k : Fin 12288) :
    (iblk m c 2 t : S1x12288.Idx → BitVec 32) (ix2 u k) = (m ((c : Thread nD τ).loc main_arg2) : S12288.Idx → BitVec 32) (ix1 k) := by
  obtain ⟨-, -, -, -, e0, e1, -⟩ := idx_facts t
  unfold iblk
  rw [View.read_apply]
  show (V m c main_v2 : S1x12288.Idx → BitVec 32) (((cfg0.win 2).blk t).view.emb (ix2 u k)) = _
  have hemb : ((cfg0.win 2).blk t).view.emb (ix2 u k) = (ix2 (0 : Fin 1) k : S1x12288.Idx) := by
    funext a; apply Fin.ext
    match a with
    | ⟨0, _⟩ => show win0_2.index t 0 * 1 + 1 * u.val = 0; rw [e0]; omega
    | ⟨1, _⟩ => show win0_2.index t 1 * 12288 + 1 * k.val = k.val; rw [e1]; omega
  rw [hemb, V_v2]
  exact shapeCast_a_1a_apply _ _ 0 k

/-! ## The output block at a point -/

/-- The two stores read at row `a`, column `b` of the block, for a column offset `o`: inside columns `o … o + 255` the later
    store's square decides — the difference at column `b` when `o + a = b`, zero otherwise —, outside them the earlier
    store's zero, and there `o + a ≠ b` since `a < 256`. -/
theorem block_apply (i : grid0.Coords) (o : Nat)
    (h10 : k0_off1 i 0 = 0) (h11 : k0_off1 i 1 = o) (h20 : k0_off2 i 0 = 0) (h21 : k0_off2 i 1 = o)
    (x0 : Vec Ideal S1x12288 .f32) (x1 x2 : Vec Ideal S1x12288 .i32) (a : Fin 256) (b : Fin 12288) :
    View.canon (Val := Elt Ideal) (s := S256x12288) (e := .f32)
        [⟨Rect.unit (s := S256x12288) (k0_off2 i) S256x256.size (k0_off2_inb i),
            k0_pay2 (F := Ideal) (View.ld x0 (Rect.unit (s := S1x12288) (k0_off1 i) S1x256.size (k0_off1_inb i)))
              (View.ld x1 (Rect.unit (s := S1x12288) (k0_off1 i) S1x256.size (k0_off1_inb i)))
              (View.ld x2 (Rect.unit (s := S1x12288) (k0_off1 i) S1x256.size (k0_off1_inb i)))⟩,
          ⟨Rect.unit (s := S256x12288) ![0, 0] S256x12288.size inb_S256x12288_S256x12288_0_0, k0_pay1 (F := Ideal)⟩]
        (ix2 a b)
      = if o + a.val = b.val then
          (FloatOps.sitofp (F := Ideal) .f32 (x2 (ix2 (0 : Fin 1) b)))
            - x0 (ix2 (0 : Fin 1) b) * (FloatOps.sitofp (F := Ideal) .f32 (x1 (ix2 (0 : Fin 1) b)))
        else Ideal.ofBits .f32 0x00000000#32 := by
  have ha := a.isLt
  have hb := b.isLt
  by_cases hin : o ≤ b.val ∧ b.val < o + 256
  · have hemb : (Rect.unit (s := S256x12288) (k0_off2 i) S256x256.size (k0_off2_inb i)).emb
        (ix2 a (⟨b.val - o, by omega⟩ : Fin 256)) = ix2 a b := by
      funext ax; apply Fin.ext
      match ax with
      | ⟨0, _⟩ => show k0_off2 i 0 + 1 * a.val = a.val; rw [h20]; omega
      | ⟨1, _⟩ => show k0_off2 i 1 + 1 * (b.val - o) = b.val; rw [h21]; omega
    have hld : ∀ {e : EltTy} (x : S1x12288.Idx → Elt Ideal e),
        View.ld (Val := Elt Ideal) x (Rect.unit (s := S1x12288) (k0_off1 i) S1x256.size (k0_off1_inb i))
          (ix2 (0 : Fin 1) (⟨b.val - o, by omega⟩ : Fin 256)) = x (ix2 (0 : Fin 1) b) := by
      intro e x
      show x ((Rect.unit (s := S1x12288) (k0_off1 i) S1x256.size (k0_off1_inb i)).idx
        (ix2 (0 : Fin 1) (⟨b.val - o, by omega⟩ : Fin 256))) = _
      congr 1
      funext ax; apply Fin.ext
      match ax with
      | ⟨0, _⟩ => show k0_off1 i 0 + 1 * 0 = 0; rw [h10]
      | ⟨1, _⟩ => show k0_off1 i 1 + 1 * (b.val - o) = b.val; rw [h11]; omega
    rw [← hemb, View.canon_cons_emb, pay2_apply, hld, hld, hld]
    exact if_congr (by show a.val = b.val - o ↔ _; omega) rfl rfl
  · have hnm : ix2 a b ∉ (Rect.unit (s := S256x12288) (k0_off2 i) S256x256.size (k0_off2_inb i)).set := by
      rw [Rect.mem_set_unit]
      intro h
      have h1 : k0_off2 i 1 ≤ b.val ∧ b.val < k0_off2 i 1 + 256 := h 1
      rw [h21] at h1
      exact hin h1
    refine (View.canon_cons_of_not_mem ⟨_, _⟩ _ hnm).trans ?_
    rw [View.canon_unit_zero (S := S256x12288) hz, pay1_apply, if_neg (by omega)]

/-- After the body at point `t`, row `a`, column `b` of the block is entry `(256 t + a, b)` of the diagonal matrix. -/
theorem point_apply (c : Dev nD) (t : Fin cfg0.N) (a : Fin 256) (b : Fin 12288) :
    (outsAt0 m c t : S256x12288.Idx → EReal) (ix2 a b)
      = cell (m ((c : Thread nD τ).loc main_arg0)) (m ((c : Thread nD τ).loc main_arg1)) (m ((c : Thread nD τ).loc main_arg2))
          ⟨256 * t.val + a.val, by have := t.isLt; have := a.isLt; have : cfg0.N = 48 := N_0; omega⟩ b := by
  obtain ⟨o10, o11, o20, o21⟩ := offsets t
  unfold outsAt0
  rw [out_eq_canon (F := Ideal) c (grid0.coords t) (ms0_0 t) (hs0_0 t) (ms0_1 t) (hs0_1 t) (ms0_2 t) (hs0_2 t) (ms0_3 t) (hs0_3 t)
      (iblk m c 0 t) (iblk m c 1 t) (iblk m c 2 t),
    block_apply (grid0.coords t) (256 * t.val) o10 o11 o20 o21 (iblk m c 0 t) (iblk m c 1 t) (iblk m c 2 t) a b,
    iblk0_apply, iblk1_apply, iblk2_apply, cell_eq_col]
  rfl

/-! ## The write-back, the cover, the array -/

/-- What point `t` writes back is row band `t` of the diagonal matrix. -/
theorem flushed_eq (c : Dev nD) (t : Fin cfg0.N) :
    (dats m 0 c).flushed 3 t = ((cfg0.win 3).blk t).view.read (Elt Ideal)
      (matrix (m ((c : Thread nD τ).loc main_arg0)) (m ((c : Thread nD τ).loc main_arg1)) (m ((c : Thread nD τ).loc main_arg2))) := by
  obtain ⟨-, -, -, -, -, -, e0, e1⟩ := idx_facts t
  have hN : cfg0.N = 48 := N_0
  have ht := t.isLt
  rw [Value.flushed3]
  funext y
  have h0 : (y 0).val < 256 := (y 0).isLt
  have h1 : (y 1).val < 12288 := (y 1).isLt
  have hy : (cfg0.win 3).xinj (grid0.coords t) y
      = (ix2 (⟨(y 0).val, h0⟩ : Fin 256) (⟨(y 1).val, h1⟩ : Fin 12288) : S256x12288.Idx) := by
    funext ax
    match ax with
    | ⟨0, _⟩ => rfl
    | ⟨1, _⟩ => rfl
  have hemb : ((cfg0.win 3).blk t).view.emb y
      = (ix2 (⟨256 * t.val + (y 0).val, by omega⟩ : Fin 12288) (⟨(y 1).val, h1⟩ : Fin 12288) : S12288x12288.Idx) := by
    funext ax; apply Fin.ext
    match ax with
    | ⟨0, _⟩ => show win0_3.index t 0 * 256 + 1 * (y 0).val = 256 * t.val + (y 0).val; rw [e0]; omega
    | ⟨1, _⟩ => show win0_3.index t 1 * 12288 + 1 * (y 1).val = (y 1).val; rw [e1]; omega
  show (outsAt0 m c t : S256x12288.Idx → EReal) ((cfg0.win 3).xinj (grid0.coords t) y)
    = matrix (m ((c : Thread nD τ).loc main_arg0)) (m ((c : Thread nD τ).loc main_arg1)) (m ((c : Thread nD τ).loc main_arg2))
        (((cfg0.win 3).blk t).view.emb y)
  rw [hy, hemb, point_apply, matrix_ix2]

/-- Every index of the result lies in some point's block: row `i` is in band `i / 256`. -/
theorem cover (i : S12288x12288.Idx) :
    ∃ t : Fin cfg0.N, (cfg0.win 3).flush t = true ∧ i ∈ ((cfg0.win 3).blk t).view.set := by
  have hN : cfg0.N = 48 := N_0
  have hi0 : (i 0).val < 12288 := (i 0).isLt
  have hi1 : (i 1).val < 12288 := (i 1).isLt
  have hT : (i 0).val / 256 < cfg0.N := by rw [hN]; omega
  obtain ⟨-, -, -, -, -, -, e0, e1⟩ := idx_facts ⟨(i 0).val / 256, hT⟩
  refine ⟨⟨(i 0).val / 256, hT⟩, flush0_3 _, ?_⟩
  show i ∈ ((View.whole main_v3).slice (win0_3.rect ⟨(i 0).val / 256, hT⟩)).set
  rw [View.set_slice_whole, Rect.mem_set_unit]
  intro a
  match a with
  | ⟨0, _⟩ =>
    show win0_3.index ⟨(i 0).val / 256, hT⟩ 0 * 256 ≤ (i 0).val ∧ (i 0).val < win0_3.index ⟨(i 0).val / 256, hT⟩ 0 * 256 + 256
    rw [e0]; show (i 0).val / 256 * 256 ≤ (i 0).val ∧ (i 0).val < (i 0).val / 256 * 256 + 256; omega
  | ⟨1, _⟩ =>
    show win0_3.index ⟨(i 0).val / 256, hT⟩ 1 * 12288 ≤ (i 1).val ∧ (i 1).val < win0_3.index ⟨(i 0).val / 256, hT⟩ 1 * 12288 + 12288
    rw [e1]; omega

/-- The result array after the run is the diagonal matrix of the three arguments. -/
theorem final (c : Dev nD) : (dats m 0 c).arrAt 3 cfg0.N
    = matrix (m ((c : Thread nD τ).loc main_arg0)) (m ((c : Thread nD τ).loc main_arg1)) (m ((c : Thread nD τ).loc main_arg2)) :=
  (dats m 0 c).arrAt_eq_of_cover 3 _ (fun t _ => flushed_eq m c t) cover

/-- Every weakly fair execution of the kernel's program terminates with the result at the diagonal matrix of the arguments
    and the arguments unchanged. -/
theorem run : θ_run defs (onTc (τ := τ) (main (F := Ideal))) ⟨m, fun _ => 0, ρ⟩ fun r => ∀ c : Dev nD,
      r.2.mem ((c : Thread nD τ).loc main_v3)
        = matrix (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Body

end
-- ==== Proof.ReferenceRun.lean ====
/-
  The reference's @main as a straight line of seventeen host operations, and its run.

  @main converts the two integer vectors, multiplies, subtracts, and calls `_diag`, which pads the vector by nothing,
  builds the row and column counters of the square, compares them, and calls `_where` to select between the vector
  broadcast along rows and a broadcast zero.  A call executes the callee's body on the call's own buffers, so the
  operations of both callees are listed here at their call sites.  Every weakly fair execution then terminates with the
  result buffer at the operations' composed term `refTerm` of the three argument vectors, the arguments unchanged.
-/
import proofs.«160500_j78228534329909_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order: its own four, `_diag`'s ten, `_where`'s three. -/
abbrev ops : List (HloOp τ sig (Elt F)) :=
  [ unary main_arg2 main_v0 (sitofp .f32 : (⟨S12288, .i32⟩ : BufTy).Contents (Elt F) → (⟨S12288, .f32⟩ : BufTy).Contents (Elt F)),
    unary main_arg1 main_v1 (sitofp .f32 : (⟨S12288, .i32⟩ : BufTy).Contents (Elt F) → (⟨S12288, .f32⟩ : BufTy).Contents (Elt F)),
    binary main_arg0 main_v1 main_v2 (mulf : (⟨S12288, .f32⟩ : BufTy).Contents (Elt F) → (⟨S12288, .f32⟩ : BufTy).Contents (Elt F) → (⟨S12288, .f32⟩ : BufTy).Contents (Elt F)),
    binary main_v0 main_v2 main_v3 (subf : (⟨S12288, .f32⟩ : BufTy).Contents (Elt F) → (⟨S12288, .f32⟩ : BufTy).Contents (Elt F) → (⟨S12288, .f32⟩ : BufTy).Contents (Elt F)),
    TRef.nullary main_call0.cst (constant S_ .f32 0x00000000#32),
    TRef.binary (.of main_v3) main_call0.cst main_call0.v0 (fun x v => pad S12288 ![0] ![0] ![0] x v pads_S12288_S12288_000 h_S_),
    TRef.nullary main_call0.v1 (iotaInDim S12288x12288 32 0),
    TRef.nullary main_call0.v2 (iotaInDim S12288x12288 32 1),
    TRef.nullary main_call0.c (constantI S_ 32 0#32),
    TRef.unary main_call0.c main_call0.v3 (broadcastInDim S12288x12288 ![] bcast_S_S12288x12288),
    TRef.binary main_call0.v1 main_call0.v3 main_call0.v4 addi,
    TRef.binary main_call0.v4 main_call0.v2 main_call0.v5 (cmpi .eq),
    TRef.unary main_call0.v0 main_call0.v6 (broadcastInDim S12288x1 ![0] bcast_S12288_S12288x1_0),
    TRef.nullary main_call0.cst_0 (constant S_ .f32 0x00000000#32),
    TRef.unary main_call0.v6 main_call0.call0.v0 (broadcastInDim S12288x12288 ![0, 1] bcast_S12288x1_S12288x12288_0_1),
    TRef.unary main_call0.cst_0 main_call0.call0.v1 (broadcastInDim S12288x12288 ![] bcast_S_S12288x12288),
    TRef.ternary main_call0.v5 main_call0.call0.v0 main_call0.call0.v1 main_call0.call0.v2 select ]

/-- @main is that straight line: the two callees unfolded at their calls, sequencing reassociated. -/
theorem main_eq (c : Dev nD) : main (F := F) c = seq ops := by
  simp only [main, fn_diag.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., binary_bufs_sub .., binary_bufs_sub ..,
    nullary_bufs_sub .., binary_bufs_sub .., nullary_bufs_sub .., nullary_bufs_sub .., nullary_bufs_sub .., unary_bufs_sub ..,
    binary_bufs_sub .., binary_bufs_sub .., unary_bufs_sub .., nullary_bufs_sub ..,
    unary_bufs_sub .., unary_bufs_sub .., ternary_bufs_sub ..⟩

/-- The operations composed: the square whose entry `(i, j)` selects, on "row counter plus zero equals column counter",
    between the vector `s − p · r` (integers converted) broadcast along rows and zero. -/
def refTerm (p : (⟨S12288, .f32⟩ : BufTy).Contents (Elt F)) (r s : (⟨S12288, .i32⟩ : BufTy).Contents (Elt F)) :
    (⟨S12288x12288, .f32⟩ : BufTy).Contents (Elt F) :=
  select
    (cmpi .eq (addi (iotaInDim S12288x12288 32 0) (broadcastInDim S12288x12288 ![] bcast_S_S12288x12288 (constantI S_ 32 0#32)))
      (iotaInDim S12288x12288 32 1))
    (broadcastInDim S12288x12288 ![0, 1] bcast_S12288x1_S12288x12288_0_1
      (broadcastInDim S12288x1 ![0] bcast_S12288_S12288x1_0
        (pad S12288 ![0] ![0] ![0] (subf (sitofp .f32 s) (mulf p (sitofp .f32 r))) (constant (F := F) S_ .f32 0x00000000#32)
          pads_S12288_S12288_000 h_S_)))
    (broadcastInDim S12288x12288 ![] bcast_S_S12288x12288 (constant (F := F) S_ .f32 0x00000000#32))

/-- Every weakly fair execution of @main terminates with the result at `refTerm` of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
        = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v4).trans (by after_results; rfl),
      (h c main_arg0).trans (by after_results),
      (h c main_arg1).trans (by after_results),
      (h c main_arg2).trans (by after_results)⟩)
    (run_seq scopedRefs_eq scopedSems_eq defs main (fun _ => ops) main_eq (fun _ => ops_sub) m ρ)

end Cert.ReferenceIdeal.HandRun

end
-- ==== Proof.ReferenceValue.lean ====
/-
  The reference's composed term, read at an index, is the diagonal matrix.

  At row `a`, column `b` the condition compares the words of `a` (plus the zero word) and `b`; both are below 2^32, so it
  holds exactly when `a = b`.  The selected branch is the vector broadcast first to a column and then along rows, which
  reads the vector at `a`; the vector itself is the padded-by-nothing `s − p · r`.  The other branch is a broadcast zero.
-/
import proofs.«160500_j78228534329909_2_alg».proof.Proof.ReferenceRun
import proofs.«160500_j78228534329909_2_alg».proof.Proof.DiagMatrix
import Idealize.ShloMosaic.Lib.Pipeline.Value
import Idealize.ShloMosaic.Lib.KernelVsHost
import Idealize.ShloMosaic.Lib.ValueIdx

noncomputable section

namespace Cert.ReferenceIdeal.HandRun

open Cert.ReferenceIdeal Cert.ReferenceIdeal.Gen Idealize.ShloMosaic Idealize.ShloMosaic.ValueIdx Cert.DiagMatrix

/-- The reference's term at row `a`, column `b`. -/
theorem refTerm_apply (p : FVec Ideal S12288 .f32) (r s : IVec S12288 32) (a b : Fin 12288) :
    refTerm (F := Ideal) p r s (ix2 a b) = cell p r s a b := by
  unfold refTerm
  show Scalar.select (IntOp.cmpi .eq (IntOp.addi (BitVec.ofNat 32 a.val) 0#32) (BitVec.ofNat 32 b.val)) _ _ = _
  rw [show IntOp.addi (BitVec.ofNat 32 a.val) 0#32 = BitVec.ofNat 32 a.val from BitVec.add_zero _,
    cmp_bit _ _ (by have := a.isLt; omega) (by have := b.isLt; omega), select_bit]
  unfold cell
  refine if_congr Iff.rfl ?_ rfl
  rw [broadcastInDim_apply _ _ _ (ix2 a b) (ix2 a (0 : Fin 1)) (fun ax => by
      match ax with
      | ⟨0, _⟩ => rfl
      | ⟨1, _⟩ => rfl),
    broadcastInDim_apply _ _ _ (ix2 a (0 : Fin 1)) (ix1 a) (fun ax => by
      match ax with
      | ⟨0, _⟩ => rfl),
    pad_apply_of_inside _ _ _ _ _ _ _ (ix1 a) (ix1 a) (fun ax => by
      match ax with
      | ⟨0, _⟩ => show a.val = 0 + a.val * (0 + 1); omega)]
  rfl

/-- The reference's term is the diagonal matrix of the three argument vectors. -/
theorem refTerm_eq (p : FVec Ideal S12288 .f32) (r s : IVec S12288 32) :
    refTerm (F := Ideal) p r s = matrix p r s := by
  funext j
  obtain ⟨a, b, rfl⟩ : ∃ (a b : Fin 12288), j = ix2 a b := ⟨j 0, j 1, eq_ix2 j⟩
  rw [matrix_ix2]
  exact refTerm_apply p r s a b

end Cert.ReferenceIdeal.HandRun

end
-- ==== Proof.lean ====
/-
  The claim: the kernel that fills a 12288 × 12288 matrix band by band and the reference `diag (s − p · r)` agree at the
  ideal instance.

  Both programs end with the result array at ONE function of the three argument vectors, the matrix with `s i − p i · r i`
  (the integer words read signed) at `(i, i)` and zero elsewhere (Proof/DiagMatrix.lean).  The kernel's side is read off
  its generated frame run block by block (Proof/KernelBody.lean, Proof/KernelArray.lean); the reference's side is its
  seventeen host operations run in order and read at an index (Proof/ReferenceRun.lean, Proof/ReferenceValue.lean).  Both
  compute the diagonal entry by the same three operations in the same order, so no law of the extended reals and no
  finiteness is used: the precondition is never opened.  The three frames are the generated frame runs (the reference's
  is its run with the result dropped); the idealization rewrote nothing, so `preserves` is `True`.
-/
import proofs.«160500_j78228534329909_2_alg».proof.Defs
import proofs.«160500_j78228534329909_2_alg».proof.Proof.Gen.Kernel
import proofs.«160500_j78228534329909_2_alg».proof.Proof.Gen.Kernel.Skeleton
import proofs.«160500_j78228534329909_2_alg».proof.Proof.Gen.Kernel.Launch
import proofs.«160500_j78228534329909_2_alg».proof.Proof.Gen.Kernel.Points
import proofs.«160500_j78228534329909_2_alg».proof.Proof.Gen.Kernel.Frame
import proofs.«160500_j78228534329909_2_alg».proof.Proof.Gen.KernelIdeal
import proofs.«160500_j78228534329909_2_alg».proof.Proof.Gen.KernelIdeal.Skeleton
import proofs.«160500_j78228534329909_2_alg».proof.Proof.Gen.KernelIdeal.Launch
import proofs.«160500_j78228534329909_2_alg».proof.Proof.Gen.KernelIdeal.Points
import proofs.«160500_j78228534329909_2_alg».proof.Proof.Gen.KernelIdeal.Frame
import proofs.«160500_j78228534329909_2_alg».proof.Proof.Gen.KernelIdeal.Value
import proofs.«160500_j78228534329909_2_alg».proof.Proof.Gen.ReferenceIdeal
import proofs.«160500_j78228534329909_2_alg».proof.Proof.Gen.Pre_finite_inputs
import proofs.«160500_j78228534329909_2_alg».proof.Proof.KernelArray
import proofs.«160500_j78228534329909_2_alg».proof.Proof.ReferenceValue
import Idealize.ShloMosaic.Adequacy
import Idealize.ShloMosaic.Init

noncomputable section

namespace Cert.Proof

open Idealize.ShloMosaic Idealize.SL.Sem

/-- The word-level kernel runs and leaves its arguments unchanged: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- From memories agreeing on the arguments both programs end with the result at the diagonal matrix of the arguments. -/
theorem algebraic : Cert.algebraic_KernelIdeal_ReferenceIdeal := by
  intro m ρ m' ρ' _ hagree
  refine ⟨_, Cert.KernelIdeal.Body.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2]
  exact Cert.ReferenceIdeal.HandRun.refTerm_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
